-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1000000 : Shape := ⟨1, ![1000000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : IVec S1000000 32) (main_arg2 : IVec S1000000 32) (main_arg3 : FVec F S1000000 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S1000000 : Shape := ⟨1, ![1000000]⟩
abbrev S128x64 : Shape := ⟨2, ![128, 64]⟩
abbrev S64 : Shape := ⟨1, ![64]⟩
abbrev S100000x64 : Shape := ⟨2, ![100000, 64]⟩
abbrev S10000x128 : Shape := ⟨2, ![10000, 128]⟩
abbrev S10000x64 : Shape := ⟨2, ![10000, 64]⟩
abbrev S1000000x1 : Shape := ⟨2, ![1000000, 1]⟩
abbrev S_ : Shape := ⟨0, ![]⟩
abbrev S1000000x64 : Shape := ⟨2, ![1000000, 64]⟩
abbrev S1x64 : Shape := ⟨2, ![1, 64]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S128x64, .f32⟩
  | .hbm, ⟨5, _⟩ => ⟨S64, .f32⟩
  | .hbm, ⟨6, _⟩ => ⟨S100000x64, .f32⟩
  | .hbm, ⟨7, _⟩ => ⟨S1000000x1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S1x64, .f32⟩
  | .hbm, ⟨24, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1000000 : Shape := ⟨1, ![1000000]⟩
abbrev S128x64 : Shape := ⟨2, ![128, 64]⟩
abbrev S64 : Shape := ⟨1, ![64]⟩
abbrev S100000x64 : Shape := ⟨2, ![100000, 64]⟩
abbrev S1000000x1 : Shape := ⟨2, ![1000000, 1]⟩
abbrev S_ : Shape := ⟨0, ![]⟩
abbrev S1000000x64 : Shape := ⟨2, ![1000000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S128x64, .f32⟩
  | .hbm, ⟨5, _⟩ => ⟨S64, .f32⟩
  | .hbm, ⟨6, _⟩ => ⟨S100000x64, .f32⟩
  | .hbm, ⟨7, _⟩ => ⟨S1000000x1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x64, .f32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KernelRun.lean ====
/-
  The idealized kernel's whole run, with its result buffer read.

  @main is three segments: the projection region (a matmul over ten row blocks), a stretch of host
  operations (gather, scale, scatter-add, reshape of the bias) and the epilogue region (bias add and
  relu over ten row blocks). Along the run the TensorCore's unscoped buffers pass through four
  valuations: the launch memory, the memory after the projection's write-backs, that memory after the
  host stretch, and the latter after the epilogue's write-backs. Every weakly fair execution ends with
  each unscoped buffer at the last valuation; in particular the result buffer holds what the
  epilogue's ten write-backs leave in its array, and the six arguments are as launched.
-/
import proofs.«145257_j38543036514348_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the
    array the epilogue region's write-backs leave, entered from the memory the host stretch leaves
    after the projection region; the arguments end as launched. -/
theorem run_result : θ_run defs (onTc (τ := τ) (main (F := F))) ⟨m, fun _ => 0, ρ⟩ (fun r => ∀ c : Dev nD,
      r.2.mem ((c.tc : Thread nD τ).loc main_v15) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v15 (by decide))).trans (W3_arr m ρ c 2),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Whole

end
-- ==== Proof.Projection.lean ====
/-
  The projection region: a [100000, 128] × [128, 64] matrix product over ten row blocks.

  The region's grid has ten points; point `t` stages rows `10000 t … 10000 t + 9999` of the left
  operand (all 128 columns), the whole right operand, and writes back the same rows of the product.
  The body narrows both blocks to bf16 — the identity on extended reals —, multiplies them into a zero
  accumulator and stores the block, so the element at row `r`, column `q` of the product is
  `∑ k, x (r, k) · w (k, q)`, a sum that mentions row `r` of the left operand and column `q` of the
  right one only. The ten blocks tile the product, hence the product array after the region is
  `matProd` of the two arrays the region was entered with.
-/
import proofs.«145257_j38543036514348_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen
open Idealize.ShloMosaic Idealize.ShloMosaic.TcCoe Idealize.SL.Sem Idealize.ShloMosaic.ValueIdx
open Idealize.ShloMosaic.Pipeline (Dat)

/-- The matrix product of a [100000, 128] array and a [128, 64] array on the extended reals: at row
    `r`, column `q`, the sum over `k` of `x (r, k) · w (k, q)`. -/
def matProd (x : Vec Ideal S100000x128 .f32) (w : Vec Ideal S128x64 .f32) : Vec Ideal S100000x64 .f32 :=
  fun i => ∑ k : Fin 128, x (ix2 (i 0) k) * w (ix2 k (i 1))

theorem zero_offsets : (![0, 0] : Fin 2 → Nat) = fun _ => 0 := funext fun a => by fin_cases a <;> rfl

/-! ## The block product's operand indices -/

theorem lhs_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_col (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
theorem rhs_row (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
theorem rhs_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at an element of the block: row `j 0` of the left block against column
    `j 1` of the right operand. -/
theorem stored_apply (x : Vec Ideal S10000x128 .f32) (w : Vec Ideal S128x64 .f32) (j : S10000x64.Idx) :
    k0_pay1 (F := Ideal) x w j = ∑ k : Fin 128, x (ix2 (j 0) k) * w (ix2 k (j 1)) := by
  unfold k0_pay1
  show FloatOps.matmul (F := Ideal) dot_S10000x128_S128x64_S10000x64_1_0_0_1_n_n none (truncf (F := Ideal) .bf16 x bitsLt_bf16_f32) (truncf (F := Ideal) .bf16 w bitsLt_bf16_f32) (constant (F := Ideal) S10000x64 .f32 0x00000000#32) j = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx j ((contrEquiv1 dot_S10000x128_S128x64_S10000x64_1_0_0_1_n_n 128 rfl rfl).symm k) = ix2 (j 0) k := funext fun a => Fin.ext (by
    match a with
    | ⟨0, _⟩ => exact lhs_row _ _
    | ⟨1, _⟩ => exact (lhs_col _ _).trans hk)
  have er : dot_S10000x128_S128x64_S10000x64_1_0_0_1_n_n.rhsIdx j ((contrEquiv1 dot_S10000x128_S128x64_S10000x64_1_0_0_1_n_n 128 rfl rfl).symm k) = ix2 k (j 1) := funext fun a => Fin.ext (by
    match a with
    | ⟨0, _⟩ => exact (rhs_row _ _).trans hk
    | ⟨1, _⟩ => exact rhs_col _ _)
  show x (dot_S10000x128_S128x64_S10000x64_1_0_0_1_n_n.lhsIdx j ((contrEquiv1 dot_S10000x128_S128x64_S10000x64_1_0_0_1_n_n 128 rfl rfl).symm k)) * w (dot_S10000x128_S128x64_S10000x64_1_0_0_1_n_n.rhsIdx j ((contrEquiv1 dot_S10000x128_S128x64_S10000x64_1_0_0_1_n_n 128 rfl rfl).symm k)) = _
  rw [el, er]
  rfl

/-- The three windows' block indices at each of the ten points: the left operand and the product
    move down one block of rows per point, the right operand stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the two operand arrays as the region
    finds them. -/
theorem written_block (c : Dev nD) (t : Fin cfg0.N) :
    (dat0 V c).flushed 2 t = ((cfg0.win 2).blk t).view.read (Elt Ideal) (matProd (V c main_arg0) (V c main_arg4)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := block_indices t
  funext j
  show k0_pay1 (iblk0 V c 0 t) (iblk0 V c 1 t) j = matProd (V c main_arg0) (V c main_arg4) (((cfg0.win 2).blk t).view.emb j)
  refine (stored_apply _ _ j).trans ?_
  unfold matProd
  refine Finset.sum_congr rfl fun k _ => ?_
  have hx : (iblk0 V c 0 t : Vec Ideal S10000x128 .f32) (ix2 (j 0) k)
      = V c main_arg0 (ix2 ((((cfg0.win 2).blk t).view.emb j) 0) k) := by
    show V c main_arg0 (((cfg0.win 0).blk t).view.emb (ix2 (j 0) k)) = _
    refine congrArg _ (funext fun d => Fin.ext ?_)
    match d with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hw : (iblk0 V c 1 t : Vec Ideal S128x64 .f32) (ix2 k (j 1))
      = V c main_arg4 (ix2 k ((((cfg0.win 2).blk t).view.emb j) 1)) := by
    show V c main_arg4 (((cfg0.win 1).blk t).view.emb (ix2 k (j 1))) = _
    refine congrArg _ (funext fun d => Fin.ext ?_)
    match d with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hx, hw]

/-- An index of the product is in point `t`'s block iff each coordinate is in the block's range. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Every element of the product lies in the block of the point its row selects. -/
theorem blocks_cover (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  refine ⟨⟨(i 0).val / 10000, by rw [hN]; omega⟩, flush0_2 _, ?_⟩
  rw [mem_block]
  obtain ⟨-, -, -, -, e4, e5⟩ := block_indices ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e4]; dsimp only; omega
  | ⟨1, _⟩ => show win0_2.index _ (1 : Fin 2) * 64 ≤ (i 1).val ∧ (i 1).val < win0_2.index _ (1 : Fin 2) * 64 + 64; rw [e5]; omega

/-- The product array after the region: the matrix product of the arrays it was entered with. -/
theorem product_array (c : Dev nD) :
    (dat0 V c).arrAt 2 cfg0.N = matProd (V c main_arg0) (V c main_arg4) :=
  (dat0 V c).arrAt_eq_of_cover 2 (matProd (V c main_arg0) (V c main_arg4)) (fun t _ => written_block V c t) blocks_cover

end Cert.KernelIdeal.Projection

end
-- ==== Proof.Epilogue.lean ====
/-
  The epilogue region: bias add and relu over ten row blocks.

  The region's grid has ten points; point `t` stages rows `10000 t … 10000 t + 9999` of the
  aggregated array (all 64 columns), the whole bias row [1, 64], and writes back the same rows of
  the result. The body stores `max (a + b, 0)` with `b` the bias row repeated down the block, so
  the element at row `r`, column `q` of the result depends on the aggregated array at `(r, q)` and
  on the bias row at `(0, q)` only. The ten blocks tile the result, hence the result array after
  the region is `biasRelu` of the two arrays the region was entered with.
-/
import proofs.«145257_j38543036514348_1_alg».proof.Proof.Gen.KernelIdeal.Frame
import Idealize.ShloMosaic.Lib.Pipeline.Value
import Idealize.ShloMosaic.Lib.ValueIdx

set_option maxRecDepth 16384

noncomputable section

namespace Cert.KernelIdeal.Epilogue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]

/-- Bias add and relu of a [100000, 64] array against a [1, 64] row: at row `r`, column `q`,
    `max (a (r, q) + b (0, q), 0)`. -/
def biasRelu (a : S100000x64.Idx → Elt F .f32) (b : S1x64.Idx → Elt F .f32) : S100000x64.Idx → Elt F .f32 :=
  fun i => FloatOps.maximumf (FloatOps.addf (a i) (b (ix2 (0 : Fin 1) (i 1)))) (FloatOps.ofBits .f32 0x00000000#32)

theorem zero_offsets : (![0, 0] : Fin 2 → Nat) = fun _ => 0 := funext fun a => by fin_cases a <;> rfl

/-- The body's stored value at an element of the block: the aggregated block's element plus the
    bias row's entry of that column, clamped below at zero. -/
theorem stored_apply (b : Vec F S1x64 .f32) (a : Vec F S10000x64 .f32) (j : S10000x64.Idx) :
    k1_pay1 b a j = FloatOps.maximumf (FloatOps.addf (a j) (b (ix2 (0 : Fin 1) (j 1)))) (FloatOps.ofBits .f32 0x00000000#32) := by
  unfold k1_pay1
  simp only [shapeCast_self]
  show FloatOps.maximumf (FloatOps.addf (a j) (broadcastTo S10000x64 b broadcasts_S1x64_S10000x64 j)) _ = _
  rw [broadcastTo_apply b broadcasts_S1x64_S10000x64 j (ix2 (0 : Fin 1) (j 1)) (fun d => by
    match d with
    | ⟨0, _⟩ => show 0 = if (1 : Nat) = 1 then 0 else _; rw [if_pos rfl]
    | ⟨1, _⟩ => show (j 1).val = if (64 : Nat) = 1 then 0 else _; rw [if_neg (by decide)]; rfl)]
  rfl

/-- The three windows' block indices at each of the ten points: the aggregated array and the result
    move down one block of rows per point, the bias row stays. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt F) ((c : Thread nD τ).loc b))

/-- What point `t` writes back is block `t` of `biasRelu` of the aggregated array and the bias row as
    the region finds them. -/
theorem written_block (c : Dev nD) (t : Fin cfg1.N) :
    (dat1 V c).flushed 2 t = ((cfg1.win 2).blk t).view.read (Elt F) (biasRelu (V c main_v13) (V c main_v14)) := by
  show (cfg1.win 2).cut (grid1.coords t) ((dat1 V c).after 2 t) = _
  rw [after1_2]
  unfold out1_2
  rw [View.canon_unit_zero zero_offsets]
  simp only [View.ld_unit_zero (S := S1x64) zero_offsets, View.ld_unit_zero (S := S10000x64) zero_offsets]
  obtain ⟨e0, e1, e2, e3, e4, e5⟩ := block_indices t
  funext j
  show k1_pay1 (iblk1 V c 1 t) (iblk1 V c 0 t) j = biasRelu (V c main_v13) (V c main_v14) (((cfg1.win 2).blk t).view.emb j)
  rw [stored_apply]
  unfold biasRelu
  have ha : (iblk1 V c 0 t : Vec F S10000x64 .f32) j = V c main_v13 (((cfg1.win 2).blk t).view.emb j) := by
    show V c main_v13 (((cfg1.win 0).blk t).view.emb j) = V c main_v13 (((cfg1.win 2).blk t).view.emb j)
    refine congrArg _ (funext fun d => Fin.ext ?_)
    match d with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have hb : (iblk1 V c 1 t : Vec F S1x64 .f32) (ix2 (0 : Fin 1) (j 1))
      = V c main_v14 (ix2 (0 : Fin 1) ((((cfg1.win 2).blk t).view.emb j) 1)) := by
    show V c main_v14 (((cfg1.win 1).blk t).view.emb (ix2 (0 : Fin 1) (j 1))) = _
    refine congrArg _ (funext fun d => Fin.ext ?_)
    match d with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [ha, hb]

/-- An index of the result is in point `t`'s block iff each coordinate is in the block's range. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v15).slice (win1_2.rect t)).set ↔ _
  rw [View.set_slice_whole, Rect.mem_set_unit]
  exact Iff.rfl

/-- Every element of the result lies in the block of the point its row selects. -/
theorem blocks_cover (i : S100000x64.Idx) :
    ∃ t : Fin cfg1.N, (cfg1.win 2).flush t = true ∧ i ∈ ((cfg1.win 2).blk t).view.set := by
  have hN : cfg1.N = 10 := N_1
  have hi0 : (i 0).val < 100000 := (i 0).isLt
  have hi1 : (i 1).val < 64 := (i 1).isLt
  refine ⟨⟨(i 0).val / 10000, by rw [hN]; omega⟩, flush1_2 _, ?_⟩
  rw [mem_block]
  obtain ⟨-, -, -, -, e4, e5⟩ := block_indices ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; dsimp only; omega
  | ⟨1, _⟩ => show win1_2.index _ (1 : Fin 2) * 64 ≤ (i 1).val ∧ (i 1).val < win1_2.index _ (1 : Fin 2) * 64 + 64; rw [e5]; omega

/-- The result array after the region: bias add and relu of the arrays it was entered with. -/
theorem result_array (c : Dev nD) :
    (dat1 V c).arrAt 2 cfg1.N = biasRelu (V c main_v13) (V c main_v14) :=
  (dat1 V c).arrAt_eq_of_cover 2 (biasRelu (V c main_v13) (V c main_v14)) (fun t _ => written_block V c t) blocks_cover

end Cert.KernelIdeal.Epilogue

end
-- ==== Proof.Aggregate.lean ====
/-
  The host stretch between the two regions: the sparse aggregation.

  From the projected features `h` [100000, 64], the edge endpoints `rows`, `cols` [1000000] and the
  edge weights `vals` [1000000] the stretch computes, operation by operation: the column index of
  each edge with a negative value moved up by 100000; the gather of row `cols e` of `h` for every
  edge `e`; its product with the edge's weight repeated along the 64 features; and the scatter-add of
  these messages into a zero array at row `rows e`. It also reshapes the bias [64] to a row [1, 64].
  `aggregate` names the first result as one function of `h` and the three edge arrays; the memory
  the epilogue region is entered with holds it, and the reshaped bias, whatever the launch memory was.
-/
import proofs.«145257_j38543036514348_1_alg».proof.Proof.Gen.KernelIdeal.Frame
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

variable {F : FTy → Type} [FloatOps F]

/-- The weighted scatter-add of gathered feature rows: for every edge `e`, row `cols e` of `h`
    (a negative `cols e` counted from the end) times `vals e`, added into row `rows e` of a zero
    array. -/
def aggregate (h : (⟨S100000x64, .f32⟩ : BufTy).Contents (Elt F)) (rows cols : (⟨S1000000, .i32⟩ : BufTy).Contents (Elt F))
    (vals : (⟨S1000000, .f32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S100000x64_S1000000x1_S1000000x64_1_0_n_n_0_1_164 h
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 100000#32))) cols))))

variable (m : (ℓ : Loc nD τ sig) → Buf (Elt F) ℓ) (ρ : Dev nD → PrngReg)

/-- The projection region leaves the edge arrays and the bias as launched: none is one of its windows' arrays. -/
theorem kept_rows (c : Dev nD) : W1 m ρ c (Proc.devRef .tc main_arg1) = m ((c : Thread nD τ).loc main_arg1) :=
  W1_of_ne m ρ c main_arg1 (by decide)
theorem kept_cols (c : Dev nD) : W1 m ρ c (Proc.devRef .tc main_arg2) = m ((c : Thread nD τ).loc main_arg2) :=
  W1_of_ne m ρ c main_arg2 (by decide)
theorem kept_vals (c : Dev nD) : W1 m ρ c (Proc.devRef .tc main_arg3) = m ((c : Thread nD τ).loc main_arg3) :=
  W1_of_ne m ρ c main_arg3 (by decide)
theorem kept_bias (c : Dev nD) : W1 m ρ c (Proc.devRef .tc main_arg5) = m ((c : Thread nD τ).loc main_arg5) :=
  W1_of_ne m ρ c main_arg5 (by decide)
/-- and its two operands too: it stages them and never writes them back. -/
theorem kept_features (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem kept_weights (c : Dev nD) : W1 m ρ c (Proc.devRef .tc main_arg4) = m ((c : Thread nD τ).loc main_arg4) :=
  (W1_arr m ρ c 1).trans (((dat0 (V0 m ρ) c).arrAt_in 1 rfl _).trans (A_eq0 (V0 m ρ) c 1))

/-- The aggregated array the epilogue region is entered with: `aggregate` of what the projection
    region left in its product array and of the launched edge arrays. -/
theorem entry_aggregated (c : Dev nD) :
    V2 m ρ c main_v13 = aggregate ((dat0 (V0 m ρ) c).arrAt 2 cfg0.N) (m ((c : Thread nD τ).loc main_arg1))
      (m ((c : Thread nD τ).loc main_arg2)) (m ((c : Thread nD τ).loc main_arg3)) := by
  rw [← W1_arr m ρ c 2, ← kept_rows m ρ c, ← kept_cols m ρ c, ← kept_vals m ρ c]
  show StableHlo.after hostOps1 (W1 m ρ c) (Proc.devRef .tc main_v13) = _
  after_results
  rfl

/-- The bias row the epilogue region is entered with: the launched bias reshaped to [1, 64]. -/
theorem entry_bias_row (c : Dev nD) :
    V2 m ρ c main_v14 = shapeCast S1x64 (m ((c : Thread nD τ).loc main_arg5)) shapeCasts_S64_S1x64 := by
  rw [← kept_bias m ρ c]
  show StableHlo.after hostOps1 (W1 m ρ c) (Proc.devRef .tc main_v14) = _
  after_results
  rfl

end Cert.KernelIdeal.Aggregate

end
-- ==== Proof.Agreement.lean ====
/-
  The two programs compute one function of the arguments.

  The reference is: `h = X · W` (one whole matrix product), the sparse aggregation of `h` over the
  edges, plus the bias broadcast down the rows, clamped below at zero. The kernel is: the same
  product computed ten row blocks at a time, the same aggregation, and the bias add and clamp ten
  row blocks at a time against the bias reshaped to a row. On the extended reals a product element
  is the same finite sum on both sides, the aggregation is literally the same operations applied to
  equal arrays, and the bias entry read at column `q` is `bias q` on both sides; no law of
  arithmetic beyond that is needed, so the inputs' finiteness is never used.
-/
import proofs.«145257_j38543036514348_1_alg».proof.Proof.Gen.ReferenceIdeal.Read
import proofs.«145257_j38543036514348_1_alg».proof.Proof.Projection
import proofs.«145257_j38543036514348_1_alg».proof.Proof.Epilogue
import proofs.«145257_j38543036514348_1_alg».proof.Proof.Aggregate
import Idealize.ShloMosaic.Lib.ValueLayout

set_option maxRecDepth 16384

noncomputable section

namespace Cert.Agreement

open Idealize.ShloMosaic Idealize.ShloMosaic.TcCoe Idealize.SL.Sem Idealize.ShloMosaic.ValueIdx
open Cert.ReferenceIdeal.Read
open Cert.KernelIdeal.Projection (matProd)
open Cert.KernelIdeal.Epilogue (biasRelu)
open Cert.KernelIdeal.Aggregate (aggregate)

/-- The reference's whole `dot_general` is the matrix product: the same sum over `k` at every element. -/
theorem ref_product (x : Vec Ideal Cert.KernelIdeal.S100000x128 .f32) (w : Vec Ideal Cert.KernelIdeal.S128x64 .f32) :
    val_main_v0 (F := Ideal) x w = matProd x w := by
  funext i
  rw [val_main_v0_apply]
  unfold matProd
  refine Finset.sum_congr rfl fun k _ => ?_
  have el : lidx_main_v0 i k = ix2 (i 0) k := funext fun a => Fin.ext (by
    match a with
    | ⟨0, _⟩ => rfl
    | ⟨1, _⟩ => rfl)
  have er : ridx_main_v0 i k = ix2 k (i 1) := funext fun a => Fin.ext (by
    match a with
    | ⟨0, _⟩ => rfl
    | ⟨1, _⟩ => rfl)
  rw [el, er]
  rfl

/-- The reference's scatter-add stage is the kernel's host aggregation applied to the reference's
    product: the same operations in the same order. -/
theorem ref_aggregate (x0 : Vec Ideal Cert.KernelIdeal.S100000x128 .f32) (x1 x2 : (⟨Cert.KernelIdeal.S1000000, .i32⟩ : BufTy).Contents (Elt Ideal))
    (x3 : Vec Ideal Cert.KernelIdeal.S1000000 .f32) (x4 : Vec Ideal Cert.KernelIdeal.S128x64 .f32) :
    val_main_v13 (F := Ideal) x0 x1 x2 x3 x4 = aggregate (F := Ideal) (val_main_v0 (F := Ideal) x0 x4) x1 x2 x3 := rfl

/-- The kernel's composed function — block products, aggregation, bias add and clamp against the
    reshaped bias — is the reference's result term, element by element. -/
theorem kernel_eq_reference (x0 : Vec Ideal Cert.KernelIdeal.S100000x128 .f32) (x1 x2 : (⟨Cert.KernelIdeal.S1000000, .i32⟩ : BufTy).Contents (Elt Ideal))
    (x3 : Vec Ideal Cert.KernelIdeal.S1000000 .f32) (x4 : Vec Ideal Cert.KernelIdeal.S128x64 .f32) (x5 : Vec Ideal Cert.KernelIdeal.S64 .f32) :
    biasRelu (F := Ideal) (aggregate (F := Ideal) (matProd x0 x4) x1 x2 x3)
        (shapeCast Cert.KernelIdeal.S1x64 x5 Cert.KernelIdeal.Gen.shapeCasts_S64_S1x64)
      = val_main_v17 (F := Ideal) x0 x1 x2 x3 x4 x5 := by
  funext i
  rw [val_main_v17_apply, val_main_v16_apply, val_main_v15_apply, val_main_v14_apply, val_main_call0_v0_apply,
    val_main_call0_cst_apply, ref_aggregate, ref_product]
  unfold biasRelu
  rw [shapeCast_a_1a_apply x5 Cert.KernelIdeal.Gen.shapeCasts_S64_S1x64 (0 : Fin 1) (i 1)]
  have e : idx_main_v14 (idx_main_v15 i) = ix1 (i 1) := funext fun a => Fin.ext (by
    match a with
    | ⟨0, _⟩ => rfl)
  rw [e]
  rfl

end Cert.Agreement

end
-- ==== Proof.lean ====
/-
  A graph convolution: `relu (A · (X · W) + bias)` with `A` a sparse matrix given by one million
  weighted edges, over 100000 nodes, 128 input and 64 output features.

  The kernel computes the dense projection `X · W` in a first region (ten blocks of 10000 rows, the
  operands narrowed to bf16 before the product — the identity on extended reals), the sparse
  aggregation by host operations (gather the projected row of each edge's source, scale by the
  edge's weight, scatter-add into the edge's target row), and the bias add with the clamp at zero in
  a second region (ten blocks of 10000 rows). The reference computes one whole product, the same
  gather, scaling and scatter-add, adds the bias broadcast down the rows and applies relu.

  Element by element both are the same expression of the arguments: a product element is the sum
  over `k` of `X (r, k) · W (k, q)` whether or not the rows are taken in blocks; the aggregation is the
  same operations applied to that product; the result is `max (agg (r, q) + bias q, 0)`. The proof
  reads each region's result array off its ten write-backs (the blocks tile the array), reads the
  host stretch between them as one function, and identifies the composition with the reference's
  result term. The idealized kernel is the kernel's own text read over the extended reals — no
  operation was rewritten —, so the preservation conjunct is trivial.
-/
import proofs.«145257_j38543036514348_1_alg».proof.Defs
import proofs.«145257_j38543036514348_1_alg».proof.Proof.Gen.Kernel
import proofs.«145257_j38543036514348_1_alg».proof.Proof.Gen.Kernel.Frame
import proofs.«145257_j38543036514348_1_alg».proof.Proof.Gen.KernelIdeal
import proofs.«145257_j38543036514348_1_alg».proof.Proof.Gen.KernelIdeal.Frame
import proofs.«145257_j38543036514348_1_alg».proof.Proof.Gen.ReferenceIdeal
import proofs.«145257_j38543036514348_1_alg».proof.Proof.Gen.Pre_finite_inputs
import proofs.«145257_j38543036514348_1_alg».proof.Proof.Gen.ReferenceIdeal.Run
import proofs.«145257_j38543036514348_1_alg».proof.Proof.Gen.ReferenceIdeal.Read
import proofs.«145257_j38543036514348_1_alg».proof.Proof.KernelRun
import proofs.«145257_j38543036514348_1_alg».proof.Proof.Agreement
import Idealize.ShloMosaic.Adequacy
import Idealize.ShloMosaic.Init

noncomputable section

namespace Cert.Proof

open Idealize.ShloMosaic Idealize.SL.Sem

/-- The idealized kernel's run with its result named: every weakly fair execution ends with the
    result buffer at the reference's result term of the launched arguments, the arguments unchanged. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v15)
        = Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun r h c => ⟨(h c).1.trans (by
      rw [Cert.KernelIdeal.Epilogue.result_array, Cert.KernelIdeal.Aggregate.entry_aggregated, Cert.KernelIdeal.Aggregate.entry_bias_row,
        Cert.KernelIdeal.Projection.product_array]
      exact Cert.Agreement.kernel_eq_reference _ _ _ _ _ _), (h c).2⟩)
    (Cert.KernelIdeal.Whole.run_result (F := Ideal) m ρ)

theorem frame_kernel : Cert.frame_Kernel := fun m ρ _ => Cert.Kernel.Gen.frame m ρ

theorem frame_kernel_ideal : Cert.frame_KernelIdeal := fun m ρ _ => Cert.KernelIdeal.Gen.frame m ρ

/-- The reference has no kernel region: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Run from memories that agree on the six arguments, both programs end with the result buffer at
    the reference's result term of those arguments. -/
theorem algebraic : Cert.algebraic_KernelIdeal_ReferenceIdeal := by
  intro m ρ m' ρ' _ hagree
  refine ⟨fun c => Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), kernel_value m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5⟩ := hagree c
  rw [(h c).1, Cert.ReferenceIdeal.Read.val_main_v17_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
